-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x4096x3 : Shape := ⟨3, ![4, 4096, 3]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x4096x3 : S_.BroadcastsInDim S4x4096x3 (![] : Fin 0 → Fin S4x4096x3.rank)
  reducesTo_S4x4096x3_S_d0_1_2 : S4x4096x3.ReducesTo [0, 1, 2] S_

variable [Facts]

def fn {F : FTy → Type} [FloatOps F] (main_arg0 : FVec F S4x16384x3 .f32) (main_arg1 : FVec F S4x4096x3 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x16384x3 : Shape := ⟨3, ![4, 16384, 3]⟩
abbrev S4x4096x3 : Shape := ⟨3, ![4, 4096, 3]⟩
abbrev S4x3x16384 : Shape := ⟨3, ![4, 3, 16384]⟩
abbrev S4x3x4096 : Shape := ⟨3, ![4, 3, 4096]⟩
abbrev S4x1x128 : Shape := ⟨3, ![4, 1, 128]⟩
abbrev S1x3x512 : Shape := ⟨3, ![1, 3, 512]⟩
abbrev S1x3x4096 : Shape := ⟨3, ![1, 3, 4096]⟩
abbrev S1x1x128 : Shape := ⟨3, ![1, 1, 128]⟩
abbrev S1x128 : Shape := ⟨2, ![1, 128]⟩
abbrev S3x512 : Shape := ⟨2, ![3, 512]⟩
abbrev S3x4096 : Shape := ⟨2, ![3, 4096]⟩
abbrev S512 : Shape := ⟨1, ![512]⟩
abbrev S4096 : Shape := ⟨1, ![4096]⟩
abbrev S512x4096 : Shape := ⟨2, ![512, 4096]⟩
abbrev S512x1 : Shape := ⟨2, ![512, 1]⟩
abbrev S1x4096 : Shape := ⟨2, ![1, 4096]⟩
abbrev S1 : Shape := ⟨1, ![1]⟩
abbrev S1x1 : Shape := ⟨2, ![1, 1]⟩
abbrev S4x1x1 : Shape := ⟨3, ![4, 1, 1]⟩
abbrev S4 : Shape := ⟨1, ![4]⟩

abbrev nBuf : Space → Nat
  | .hbm => 7
  | .vmem => 7
  | .smem => 0
  | _ => 0

abbrev bufTy : (tb : Table) → Fin (tcTables nBuf tb) → BufTy
  | .hbm, ⟨0, _⟩ => ⟨S4x16384x3, .f32⟩
  | .hbm, ⟨1, _⟩ => ⟨S4x4096x3, .f32⟩
  | .hbm, ⟨2, _⟩ => ⟨S4x3x16384, .f32⟩
  | .hbm, ⟨3, _⟩ => ⟨S4x3x4096, .f32⟩
  | .hbm, ⟨4, _⟩ => ⟨S4x1x128, .f32⟩
  | .hbm, ⟨5, _⟩ => ⟨S4x1x1, .f32⟩
  | .hbm, ⟨6, _⟩ => ⟨S4, .f32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_16 : BitVec 32 := 0#32
  let v35 : BitVec 1 := Scalar.cmpi .ne v34 c0_i32_16
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4x16384x3_S4x3x16384_0_2_1 : S4x16384x3.Transposes [0, 2, 1] S4x3x16384
  transposes_S4x4096x3_S4x3x4096_0_2_1 : S4x4096x3.Transposes [0, 2, 1] S4x3x4096
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x512_S512 : S3x512.Reduces [0] S512
  reduces_S3x4096_S4096 : S3x4096.Reduces [0] S4096
  shapeCasts_S512_S512x1 : S512.ShapeCasts S512x1
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  reduces_S512x1_S1 : S512x1.Reduces [0] S1
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  dot_S3x512_S3x4096_S512x4096_0_0_1_1_n_n_wf : DotDims.WF S3x512 S3x4096 S512x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S4x3x16384.size a
  hwx0_0 : ∀ i : grid0.Coords, EltTy.bits .f32 = 32 ∨ (Rect.block (s := S4x3x16384) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S3x512_S3x4096_S512x4096_0_0_1_1_n_n : DotDims S3x512 S3x4096 S512x4096 where
  lhsContracting := [0]
  rhsContracting := [0]
  lhsNonContracting := [1]
  rhsNonContracting := [1]
  lhsBatch := []
  rhsBatch := []
  wf := dot_S3x512_S3x4096_S512x4096_0_0_1_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x16384x3 : Shape := ⟨3, ![4, 16384, 3]⟩
abbrev S4x4096x3 : Shape := ⟨3, ![4, 4096, 3]⟩
abbrev S_ : Shape := ⟨0, ![]⟩
abbrev S4x16384 : Shape := ⟨2, ![4, 16384]⟩
abbrev S4x4096 : Shape := ⟨2, ![4, 4096]⟩
abbrev S4x16384x4096 : Shape := ⟨3, ![4, 16384, 4096]⟩
abbrev S4x16384x1 : Shape := ⟨3, ![4, 16384, 1]⟩
abbrev S4x1x4096 : Shape := ⟨3, ![4, 1, 4096]⟩
abbrev S4 : Shape := ⟨1, ![4]⟩

abbrev nBuf : Space → Nat
  | .hbm => 28
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x4096x3, .f32⟩
  | .hbm, ⟨2, _⟩ => ⟨S4x16384x3, .f32⟩
  | .hbm, ⟨3, _⟩ => ⟨S_, .f32⟩
  | .hbm, ⟨4, _⟩ => ⟨S4x16384, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x16384x4096, .f32⟩
  | .hbm, ⟨9, _⟩ => ⟨S4x16384x1, .f32⟩
  | .hbm, ⟨10, _⟩ => ⟨S4x1x4096, .f32⟩
  | .hbm, ⟨11, _⟩ => ⟨S4x16384x4096, .f32⟩
  | .hbm, ⟨12, _⟩ => ⟨S4x16384x4096, .f32⟩
  | .hbm, ⟨13, _⟩ => ⟨S4x16384x4096, .f32⟩
  | .hbm, ⟨14, _⟩ => ⟨S_, .f32⟩
  | .hbm, ⟨15, _⟩ => ⟨S4x16384x4096, .f32⟩
  | .hbm, ⟨16, _⟩ => ⟨S4x16384x4096, .f32⟩
  | .hbm, ⟨17, _⟩ => ⟨S4x16384x4096, .f32⟩
  | .hbm, ⟨18, _⟩ => ⟨S_, .f32⟩
  | .hbm, ⟨19, _⟩ => ⟨S4x16384x4096, .f32⟩
  | .hbm, ⟨20, _⟩ => ⟨S4x16384x4096, .f32⟩
  | .hbm, ⟨21, _⟩ => ⟨S_, .f32⟩
  | .hbm, ⟨22, _⟩ => ⟨S4x16384, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S4x16384x3_S4x16384_d2 : S4x16384x3.ReducesTo [2] S4x16384
  h_S_ : 0 < S_.numel
  reducesTo_S4x4096x3_S4x4096_d2 : S4x4096x3.ReducesTo [2] S4x4096
  bcast_S4x16384_S4x16384x1_0_1 : S4x16384.BroadcastsInDim S4x16384x1 (![0, 1] : Fin 2 → Fin S4x16384x1.rank)
  bcast_S4x4096_S4x1x4096_0_2 : S4x4096.BroadcastsInDim S4x1x4096 (![0, 2] : Fin 2 → Fin S4x1x4096.rank)
  bcast_S4x16384x1_S4x16384x4096_0_1_2 : S4x16384x1.BroadcastsInDim S4x16384x4096 (![0, 1, 2] : Fin 3 → Fin S4x16384x4096.rank)
  bcast_S4x1x4096_S4x16384x4096_0_1_2 : S4x1x4096.BroadcastsInDim S4x16384x4096 (![0, 1, 2] : Fin 3 → Fin S4x16384x4096.rank)
  bcast_S_S4x16384x4096 : S_.BroadcastsInDim S4x16384x4096 (![] : Fin 0 → Fin S4x16384x4096.rank)
  reducesTo_S4x16384x4096_S4x16384_d2 : S4x16384x4096.ReducesTo [2] S4x16384
  reducesTo_S4x16384_S4_d1 : S4x16384.ReducesTo [1] S4
  bcast_S_S4 : S_.BroadcastsInDim S4 (![] : Fin 0 → Fin S4.rank)
  dot_S4x16384x3_S4x4096x3_S4x16384x4096_2_2_1_1_0_0_wf : DotDims.WF S4x16384x3 S4x4096x3 S4x16384x4096 [2] [2] [1] [1] [0] [0]

variable [Facts₀]

def dot_S4x16384x3_S4x4096x3_S4x16384x4096_2_2_1_1_0_0 : DotDims S4x16384x3 S4x4096x3 S4x16384x4096 where
  lhsContracting := [2]
  rhsContracting := [2]
  lhsNonContracting := [1]
  rhsNonContracting := [1]
  lhsBatch := [0]
  rhsBatch := [0]
  wf := dot_S4x16384x3_S4x4096x3_S4x16384x4096_2_2_1_1_0_0_wf

class Facts : Prop extends Facts₀ where

variable [Facts]
-- ==== Proof.Spec.lean ====
/-
  The common value of the two programs, as one function of the argument arrays, and the one law that joins them.

  For source points `p n` (n < 16384) and target points `q m` (m < 4096), each a triple of extended reals:
    sqDist p q  = max ((|p|² + |q|²) − 2 · ⟨p, q⟩) 0          the clamped expansion of the squared distance
    nearest p q = min over m of sqDist p (q m), from +∞        the squared distance to the nearest target
    loss p q    = (Σ_n nearest (p n) q) / 16384
  every sum, minimum and quotient the exact one on the extended reals. The constants 2, 0, +∞ and 16384 are kept as the
  f32 words both programs print; nothing below depends on what they denote, except that the word of zeros denotes 0.

  The law: a sum over the 16384 rows is the running sum of 32 consecutive tiles of 512 rows, started from 0. Only
  commutativity and associativity of addition are used, so it holds at the infinities too.
-/
import Idealize.ShloMosaic.PureOps.Ideal
import Idealize.ShloMosaic.PureOps.Ideal.Laws
import Idealize.ShloMosaic.Lib.ValueIdx

noncomputable section

namespace Cert.Chamfer

open Idealize.ShloMosaic

/-- The words the programs share. -/
abbrev two : EReal := Ideal.ofBits .f32 0x40000000#32
abbrev zero : EReal := Ideal.ofBits .f32 0x00000000#32
abbrev inf : EReal := Ideal.ofBits .f32 0x7F800000#32
abbrev cnt : EReal := Ideal.ofBits .f32 0x46800000#32

/-- `max ((|p|² + |q|²) − 2⟨p, q⟩) 0`. -/
def sqDist (p q : Fin 3 → EReal) : EReal :=
  max (((∑ d : Fin 3, p d * p d) + ∑ d : Fin 3, q d * q d) - two * ∑ d : Fin 3, p d * q d) zero

/-- The least `sqDist p (q m)` over the 4096 targets, folded from +∞. -/
def nearest (p : Fin 3 → EReal) (q : Fin 4096 → Fin 3 → EReal) : EReal :=
  (Finset.univ : Finset (Fin 4096)).fold (FloatOps.minimumf (F := Ideal) (φ := .f32)) inf (fun m => sqDist p (q m))

/-- The mean over the 16384 sources of the squared distance to the nearest target. -/
def loss (p : Fin 16384 → Fin 3 → EReal) (q : Fin 4096 → Fin 3 → EReal) : EReal :=
  Ideal.div (∑ n : Fin 16384, nearest (p n) q) cnt

/-- Source point `n` of batch `b`: its three coordinates, read off the [4, 16384, 3] array. -/
abbrev srcPt (X : (⟨3, ![4, 16384, 3]⟩ : Shape).Idx → EReal) (b : Fin 4) (n : Fin 16384) : Fin 3 → EReal :=
  fun d => X (ValueIdx.ix3 b n d)

/-- Target point `m` of batch `b`, read off the [4, 4096, 3] array. -/
abbrev tgtPt (Y : (⟨3, ![4, 4096, 3]⟩ : Shape).Idx → EReal) (b : Fin 4) (m : Fin 4096) : Fin 3 → EReal :=
  fun d => Y (ValueIdx.ix3 b m d)

/-- The result array: each batch's loss. -/
def lossOf (X : (⟨3, ![4, 16384, 3]⟩ : Shape).Idx → EReal) (Y : (⟨3, ![4, 4096, 3]⟩ : Shape).Idx → EReal) :
    (⟨1, ![4]⟩ : Shape).Idx → EReal :=
  fun i => loss (srcPt X (i 0)) (tgtPt Y (i 0))

/-! ## A sum over 16384 rows as a running sum over 32 tiles of 512 -/

/-- Row `n`'s term, and 0 past the last row. -/
def term (g : Fin 16384 → EReal) (n : ℕ) : EReal := if h : n < 16384 then g ⟨n, h⟩ else 0

/-- The sum of the rows of tiles 0, …, k. -/
def partialSum (g : Fin 16384 → EReal) (k : ℕ) : EReal := ∑ i ∈ Finset.range (512 * (k + 1)), term g i

/-- The sum of tile `k`'s 512 rows. -/
def tileSum (g : Fin 16384 → EReal) (k : ℕ) (hk : k < 32) : EReal :=
  ∑ r : Fin 512, g ⟨512 * k + r.val, by have := r.isLt; omega⟩

theorem tileSum_eq (g : Fin 16384 → EReal) (k : ℕ) (hk : k < 32) :
    tileSum g k hk = ∑ r ∈ Finset.range 512, term g (512 * k + r) := by
  unfold tileSum
  rw [Finset.sum_range]
  refine Finset.sum_congr rfl fun r _ => ?_
  unfold term
  rw [dif_pos (by have := r.isLt; omega)]

/-- The first tile added to 0 is the first partial sum. -/
theorem partial_first (g : Fin 16384 → EReal) (k : ℕ) (hk : k < 32) (h0 : k = 0) :
    zero + tileSum g k hk = partialSum g k := by
  subst h0
  rw [tileSum_eq, show zero = (0 : EReal) from Ideal.ofBits_zero_f32, zero_add]
  unfold partialSum
  refine Finset.sum_congr rfl fun r _ => ?_
  rw [Nat.mul_zero, Nat.zero_add]

/-- A later tile added to the partial sum before it is the next partial sum. -/
theorem partial_next (g : Fin 16384 → EReal) (k : ℕ) (hk : k < 32) (h0 : k ≠ 0) :
    partialSum g (k - 1) + tileSum g k hk = partialSum g k := by
  obtain ⟨j, rfl⟩ : ∃ j, k = j + 1 := ⟨k - 1, by omega⟩
  rw [tileSum_eq]
  unfold partialSum
  rw [show j + 1 - 1 = j from rfl, show 512 * (j + 1 + 1) = 512 * (j + 1) + 512 from by ring, Finset.sum_range_add]

/-- The last partial sum is the sum over all rows. -/
theorem partial_last (g : Fin 16384 → EReal) : partialSum g 31 = ∑ n : Fin 16384, g n := by
  unfold partialSum
  rw [show 512 * (31 + 1) = 16384 from rfl, Finset.sum_range]
  refine Finset.sum_congr rfl fun n _ => ?_
  unfold term
  rw [dif_pos n.isLt]

end Cert.Chamfer

end
-- ==== Proof.RefValue.lean ====
/-
  The reference's result is the loss: its composed host operations, read at an index, are
    ( 0 + Σ_n  min_m  max ( ((0 + Σ_d x²) + (0 + Σ_d y²)) − 2 · Σ_d x·y , 0 ) ) / 16384
  batch by batch; the two added zeros vanish, and what is left is `Cert.Chamfer.loss` of the batch's points.
-/
import proofs.«131584_j46136538694019_2_alg».proof.Proof.Gen.ReferenceIdeal.Read
import proofs.«131584_j46136538694019_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Chamfer

variable (X : (⟨S4x16384x3, .f32⟩ : BufTy).Contents (Elt Ideal)) (Y : (⟨S4x4096x3, .f32⟩ : BufTy).Contents (Elt Ideal))

/-- The clamped squared distance of source `(b, n)` to target `(b, m)`, as the reference computes it. -/
theorem sqDist_apply (b : Fin 4) (n : Fin 16384) (m : Fin 4096) :
    val_main_v14 (F := Ideal) X Y (ix3 b n m) = sqDist (srcPt X b n) (tgtPt Y b m) := by
  have e7 : idx_main_v5 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  have e1 : ∀ k : Fin 3, idx_main_v1 (ix2 b n) k = ix3 b n k := fun k =>
    funext fun a => Fin.ext (by match a with | ⟨0, _⟩ => rfl | ⟨1, _⟩ => rfl | ⟨2, _⟩ => rfl)
  have e3 : ∀ k : Fin 3, idx_main_v3 (ix2 b m) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v14_apply, val_main_v12_apply, val_main_v13_apply, val_main_cst_2_apply, val_main_v9_apply,
    val_main_v11_apply, val_main_v10_apply, val_main_cst_1_apply, val_main_v4_apply, val_main_v7_apply,
    val_main_v5_apply, e7, val_main_v1_apply, val_main_v8_apply, val_main_v6_apply, e8, val_main_v3_apply,
    val_main_cst_apply, val_main_cst_0_apply]
  simp only [e1, e3, el, er, val_main_v0_apply, val_main_v2_apply, Ideal.mulf_def, Ideal.addf_def, Ideal.subf_def,
    Ideal.maximumf_def, Ideal.ofBits_def, sqDist, srcPt, tgtPt, Cert.Chamfer.zero, Cert.Chamfer.two,
    Ideal.ofBits_zero_f32, zero_add]

/-- The minimum runs over the last axis of the [4, 16384, 4096] array of distances. -/
theorem hred : S4x16384x4096.Reduces [2] S4x16384 := by decide

/-- Putting target `m` on the reduced axis of `(b, n)` gives `(b, n, m)`. -/
theorem lift_eq (b : Fin 4) (n : Fin 16384) (m : Fin 4096) : hred.lift (ix2 b n) m = ix3 b n m :=
  funext fun a => Fin.ext (by match a with | ⟨0, _⟩ => rfl | ⟨1, _⟩ => rfl | ⟨2, _⟩ => rfl)

/-- The reference's minimum over the targets is `nearest`. -/
theorem nearest_apply (b : Fin 4) (n : Fin 16384) :
    val_main_v15 (F := Ideal) X Y (ix2 b n) = nearest (srcPt X b n) (tgtPt Y b) := by
  unfold val_main_v15
  rw [Host.reduce_eq_fold_single FloatOps.minimumf _ _ reducesTo_S4x16384x4096_S4x16384_d2 hred h_S_]
  unfold nearest
  refine Finset.fold_congr fun m _ => ?_
  exact (congrArg (val_main_v14 (F := Ideal) X Y) (lift_eq b n m)).trans (sqDist_apply X Y b n m)

/-- The reference's result array is the loss of each batch. -/
theorem result_eq : val_main_v18 (F := Ideal) X Y = lossOf X Y := by
  funext i
  obtain ⟨b, rfl⟩ : ∃ b : Fin 4, i = ix1 b := ⟨i 0, eq_ix1 i⟩
  have e16 : ∀ k : Fin 16384, idx_main_v16 (ix1 b) k = ix2 b k := fun k =>
    funext fun a => Fin.ext (by match a with | ⟨0, _⟩ => rfl | ⟨1, _⟩ => rfl)
  rw [val_main_v18_apply, val_main_v16_apply, val_main_v17_apply, val_main_cst_5_apply, val_main_cst_4_apply]
  simp only [e16, nearest_apply, Ideal.hostDivf_def, Ideal.ofBits_def, Ideal.ofBits_zero_f32, zero_add]
  show _ = loss (srcPt X b) (tgtPt Y b)
  unfold loss
  rfl

end Cert.ReferenceIdeal.RefValue

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.Payload.lean ====
/-
  The body's arithmetic at the extended reals, read at an index.

  One grid point loads a source block `x0` : [1, 3, 512] (coordinate `d` on the middle axis, row `r` on the last) and a
  target block `x1` : [1, 3, 4096]. From them the body forms, row by row, the clamped squared distance to every target,
  its minimum over the 4096 targets, and the sum of the 512 minima, which it adds to every lane of the carried [1, 128]
  accumulator. Stage by stage:
    src, tgt   the blocks without their leading unit axis
    srcSq r    = Σ_d x0(d, r)²              tgtSq m = Σ_d x1(d, m)²
    cross r m  = Σ_d x0(d, r) · x1(d, m)    the product contracted over the coordinate axis, from a zero accumulator
    dist r m   = max ((srcSq r + tgtSq m) − 2 · cross r m) 0 = sqDist (x0(·, r)) (x1(·, m))
    rowMin r   = min_m dist r m from +∞     = nearest (x0(·, r)) (x1(·, ·))
    tileTotal  = Σ_r rowMin r
  The keepdims columns and the broadcasts between them only move these numbers to other indices.
-/
import proofs.«131584_j46136538694019_2_alg».proof.Proof.Gen.KernelIdeal.Skeleton
import proofs.«131584_j46136538694019_2_alg».proof.Proof.Spec
import proofs.«131584_j46136538694019_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.Column
open Cert.Chamfer

variable (x0 : FVec Ideal S1x3x512 .f32) (x1 : FVec Ideal S1x3x4096 .f32)

/-- Row `r` of the source block as a point, and row `m` of the target block. -/
abbrev blkSrc (r : Fin 512) : Fin 3 → EReal := fun d => x0 (ix3 (0 : Fin 1) d r)
abbrev blkTgt (m : Fin 4096) : Fin 3 → EReal := fun d => x1 (ix3 (0 : Fin 1) d m)

/-! ## The blocks without their unit axis -/

def src : FVec Ideal S3x512 .f32 := shapeCast S3x512 x0 shapeCasts_S1x3x512_S3x512
def tgt : FVec Ideal S3x4096 .f32 := shapeCast S3x4096 x1 shapeCasts_S1x3x4096_S3x4096

theorem src_apply (d : Fin 3) (r : Fin 512) : src x0 (ix2 d r) = x0 (ix3 (0 : Fin 1) d r) :=
  shapeCast_1ab_ab_apply x0 shapeCasts_S1x3x512_S3x512 d r
theorem tgt_apply (d : Fin 3) (m : Fin 4096) : tgt x1 (ix2 d m) = x1 (ix3 (0 : Fin 1) d m) :=
  shapeCast_1ab_ab_apply x1 shapeCasts_S1x3x4096_S3x4096 d m

/-! ## The squared norms: a sum over the three coordinates -/

def srcSq : FVec Ideal S512 .f32 :=
  multiReduction .add [0] S512 (mulf (src x0) (src x0)) 0x00000000#32 reduces_S3x512_S512 (.inl rfl) rfl
def tgtSq : FVec Ideal S4096 .f32 :=
  multiReduction .add [0] S4096 (mulf (tgt x1) (tgt x1)) 0x00000000#32 reduces_S3x4096_S4096 (.inl rfl) rfl

theorem srcSq_apply (r : Fin 512) : srcSq x0 (ix1 r) = ∑ d : Fin 3, x0 (ix3 (0 : Fin 1) d r) * x0 (ix3 (0 : Fin 1) d r) := by
  unfold srcSq
  refine (Ideal.multiReduction_add_single (mulf (src x0) (src x0)) 0x00000000#32 reduces_S3x512_S512 (.inl rfl) rfl (ix1 r)).trans ?_
  refine Finset.sum_congr rfl fun d _ => ?_
  have e : reduces_S3x512_S512.lift (ix1 r) d = ix2 d r :=
    funext fun a => Fin.ext (by match a with | ⟨0, _⟩ => rfl | ⟨1, _⟩ => rfl)
  refine (congrArg (mulf (src x0) (src x0)) e).trans ?_
  exact congrArg₂ (· * ·) (src_apply x0 d r) (src_apply x0 d r)

theorem tgtSq_apply (m : Fin 4096) : tgtSq x1 (ix1 m) = ∑ d : Fin 3, x1 (ix3 (0 : Fin 1) d m) * x1 (ix3 (0 : Fin 1) d m) := by
  unfold tgtSq
  refine (Ideal.multiReduction_add_single (mulf (tgt x1) (tgt x1)) 0x00000000#32 reduces_S3x4096_S4096 (.inl rfl) rfl (ix1 m)).trans ?_
  refine Finset.sum_congr rfl fun d _ => ?_
  have e : reduces_S3x4096_S4096.lift (ix1 m) d = ix2 d m :=
    funext fun a => Fin.ext (by match a with | ⟨0, _⟩ => rfl | ⟨1, _⟩ => rfl)
  refine (congrArg (mulf (tgt x1) (tgt x1)) e).trans ?_
  exact congrArg₂ (· * ·) (tgt_apply x1 d m) (tgt_apply x1 d m)

/-! ## The cross term: the product contracted over the coordinate axis of both blocks -/

def cross : FVec Ideal S512x4096 .f32 :=
  matmul dot_S3x512_S3x4096_S512x4096_0_0_1_1_n_n (some .fp32) (src x0) (tgt x1) (constant S512x4096 .f32 0x00000000#32)

/-- The left operand is read at (contraction position, output row), -/
theorem lhs_val0 (j : S512x4096.Idx) (q : dot_S3x512_S3x4096_S512x4096_0_0_1_1_n_n.contr.Idx) :
    (dot_S3x512_S3x4096_S512x4096_0_0_1_1_n_n.lhsIdx j q 0).val = (q ⟨0, by decide⟩).val :=
  dot_S3x512_S3x4096_S512x4096_0_0_1_1_n_n.lhsIdx_val_of_single rfl j q
theorem lhs_val1 (j : S512x4096.Idx) (q : dot_S3x512_S3x4096_S512x4096_0_0_1_1_n_n.contr.Idx) :
    (dot_S3x512_S3x4096_S512x4096_0_0_1_1_n_n.lhsIdx j q 1).val = (j 0).val := by
  unfold DotDims.lhsIdx
  rw [dif_neg (show ¬(1 : Fin S3x512.rank) ∈ dot_S3x512_S3x4096_S512x4096_0_0_1_1_n_n.lhsBatch by decide),
    dif_pos (show (1 : Fin S3x512.rank) ∈ dot_S3x512_S3x4096_S512x4096_0_0_1_1_n_n.lhsNonContracting by decide)]
  rfl
/-- and the right operand at (contraction position, output column). -/
theorem rhs_val0 (j : S512x4096.Idx) (q : dot_S3x512_S3x4096_S512x4096_0_0_1_1_n_n.contr.Idx) :
    (dot_S3x512_S3x4096_S512x4096_0_0_1_1_n_n.rhsIdx j q 0).val = (q ⟨0, by decide⟩).val :=
  dot_S3x512_S3x4096_S512x4096_0_0_1_1_n_n.rhsIdx_val_of_single rfl j q
theorem rhs_val1 (j : S512x4096.Idx) (q : dot_S3x512_S3x4096_S512x4096_0_0_1_1_n_n.contr.Idx) :
    (dot_S3x512_S3x4096_S512x4096_0_0_1_1_n_n.rhsIdx j q 1).val = (j 1).val := by
  unfold DotDims.rhsIdx
  rw [dif_neg (show ¬(1 : Fin S3x4096.rank) ∈ dot_S3x512_S3x4096_S512x4096_0_0_1_1_n_n.rhsBatch by decide),
    dif_pos (show (1 : Fin S3x4096.rank) ∈ dot_S3x512_S3x4096_S512x4096_0_0_1_1_n_n.rhsNonContracting by decide)]
  rfl

theorem cross_apply (r : Fin 512) (m : Fin 4096) :
    cross x0 x1 (ix2 r m) = ∑ d : Fin 3, x0 (ix3 (0 : Fin 1) d r) * x1 (ix3 (0 : Fin 1) d m) := by
  unfold cross
  refine (Ideal.matmul_constant_zero_apply dot_S3x512_S3x4096_S512x4096_0_0_1_1_n_n (some .fp32) (src x0) (tgt x1) (ix2 r m)).trans ?_
  rw [← Equiv.sum_comp (ValueIdx.contrEquiv1 dot_S3x512_S3x4096_S512x4096_0_0_1_1_n_n 3 rfl rfl).symm]
  refine Finset.sum_congr rfl fun k _ => ?_
  have hk := ValueIdx.contrEquiv1_symm_val dot_S3x512_S3x4096_S512x4096_0_0_1_1_n_n 3 rfl rfl k
  have el : dot_S3x512_S3x4096_S512x4096_0_0_1_1_n_n.lhsIdx (ix2 r m) ((ValueIdx.contrEquiv1 dot_S3x512_S3x4096_S512x4096_0_0_1_1_n_n 3 rfl rfl).symm k) = ix2 k r :=
    funext fun a => Fin.ext (by
      match a with
      | ⟨0, _⟩ => exact (lhs_val0 _ _).trans hk
      | ⟨1, _⟩ => exact lhs_val1 _ _)
  have er : dot_S3x512_S3x4096_S512x4096_0_0_1_1_n_n.rhsIdx (ix2 r m) ((ValueIdx.contrEquiv1 dot_S3x512_S3x4096_S512x4096_0_0_1_1_n_n 3 rfl rfl).symm k) = ix2 k m :=
    funext fun a => Fin.ext (by
      match a with
      | ⟨0, _⟩ => exact (rhs_val0 _ _).trans hk
      | ⟨1, _⟩ => exact rhs_val1 _ _)
  rw [el, er, src_apply, tgt_apply]

/-! ## The clamped squared distances -/

def dist : FVec Ideal S512x4096 .f32 :=
  maximumf
    (subf
      (addf (broadcastTo S512x4096 (shapeCast S512x1 (srcSq x0) shapeCasts_S512_S512x1) broadcasts_S512x1_S512x4096)
        (broadcastTo S512x4096 (shapeCast S1x4096 (tgtSq x1) shapeCasts_S4096_S1x4096) broadcasts_S1x4096_S512x4096))
      (mulf (broadcast S512x4096 (Scalar.ofBits .f32 0x40000000#32)) (cross x0 x1)))
    (broadcast S512x4096 (Scalar.ofBits .f32 0x00000000#32))

theorem dist_apply (r : Fin 512) (m : Fin 4096) : dist x0 x1 (ix2 r m) = sqDist (blkSrc x0 r) (blkTgt x1 m) := by
  unfold dist sqDist
  simp only [maximumf_apply, subf_apply, addf_apply, mulf_apply, broadcast_apply]
  rw [broadcastTo_a1_ab_apply, shapeCast_a_a1_apply, broadcastTo_1b_ab_apply, shapeCast_a_1a_apply, srcSq_apply,
    tgtSq_apply, cross_apply]
  rfl

/-! ## The nearest target of each row, and the tile's total -/

def rowMin : FVec Ideal S512 .f32 :=
  multiReduction .minimumf [1] S512 (dist x0 x1) 0x7F800000#32 reduces_S512x4096_S512 (.inl rfl) rfl

theorem rowMin_apply (r : Fin 512) : rowMin x0 x1 (ix1 r) = nearest (blkSrc x0 r) (blkTgt x1) := by
  unfold rowMin
  refine (multiReduction_minimumf_eq_fold (dist x0 x1) 0x7F800000#32 reduces_S512x4096_S512 (.inl rfl) rfl (ix1 r)).trans ?_
  refine (reduces_S512x4096_S512.fold_filter_drop_single FloatOps.minimumf _ (dist x0 x1) (ix1 r)).trans ?_
  unfold nearest
  refine Finset.fold_congr fun m _ => ?_
  have e : reduces_S512x4096_S512.lift (ix1 r) m = ix2 r m :=
    funext fun a => Fin.ext (by match a with | ⟨0, _⟩ => rfl | ⟨1, _⟩ => rfl)
  exact (congrArg (dist x0 x1) e).trans (dist_apply x0 x1 r m)

def tileTotal : FVec Ideal S1 .f32 :=
  multiReduction .add [0] S1 (shapeCast S512x1 (rowMin x0 x1) shapeCasts_S512_S512x1) 0x00000000#32 reduces_S512x1_S1 (.inl rfl) rfl

theorem tileTotal_apply : tileTotal x0 x1 (ix1 (0 : Fin 1)) = ∑ r : Fin 512, nearest (blkSrc x0 r) (blkTgt x1) := by
  unfold tileTotal
  refine (Ideal.multiReduction_add_single (shapeCast S512x1 (rowMin x0 x1) shapeCasts_S512_S512x1) 0x00000000#32
    reduces_S512x1_S1 (.inl rfl) rfl (ix1 (0 : Fin 1))).trans ?_
  refine Finset.sum_congr rfl fun r _ => ?_
  have e : reduces_S512x1_S1.lift (ix1 (0 : Fin 1)) r = ix2 r (0 : Fin 1) :=
    funext fun a => Fin.ext (by match a with | ⟨0, _⟩ => rfl | ⟨1, _⟩ => rfl)
  refine (congrArg (shapeCast S512x1 (rowMin x0 x1) shapeCasts_S512_S512x1) e).trans ?_
  exact (shapeCast_a_a1_apply (rowMin x0 x1) shapeCasts_S512_S512x1 r 0).trans (rowMin_apply x0 x1 r)

/-! ## The three stores' values -/

/-- The accumulating store: every lane of the carried accumulator gains the tile's total. -/
theorem accumulate_apply (acc : FVec Ideal S1x128 .f32) (l : Fin 128) :
    k0_pay3 (F := Ideal) x0 x1 acc (ix2 (0 : Fin 1) l)
      = acc (ix2 (0 : Fin 1) l) + ∑ r : Fin 512, nearest (blkSrc x0 r) (blkTgt x1) := by
  have h : k0_pay3 (F := Ideal) x0 x1 acc
      = shapeCast S1x128 (addf acc (broadcastTo S1x128
          (shapeCast S1x1 (shapeCast S1x1 (tileTotal x0 x1) shapeCasts_S1_S1x1) shapeCasts_S1x1_S1x1) broadcasts_S1x1_S1x128))
          shapeCasts_S1x128_S1x128 := rfl
  rw [h, shapeCast_self, shapeCast_self]
  show acc (ix2 (0 : Fin 1) l) + broadcastTo S1x128 (shapeCast S1x1 (tileTotal x0 x1) shapeCasts_S1_S1x1) broadcasts_S1x1_S1x128 (ix2 (0 : Fin 1) l) = _
  rw [broadcastTo_a1_ab_apply, shapeCast_a_a1_apply, tileTotal_apply]

/-- The resetting store writes the zero word to every lane. -/
theorem reset_apply (j : S1x128.Idx) : k0_pay2 (F := Ideal) j = Cert.Chamfer.zero := by
  have h : k0_pay2 (F := Ideal)
      = shapeCast S1x128 (broadcast S1x128 (Scalar.ofBits (F := Ideal) .f32 0x00000000#32)) shapeCasts_S1x128_S1x128 := rfl
  rw [h, shapeCast_self]
  rfl

/-- The final store: every lane of the output block is the carried accumulator's lane over the count. -/
theorem finish_apply (acc : FVec Ideal S1x128 .f32) (l : Fin 128) :
    k0_pay1 (F := Ideal) acc (ix3 (0 : Fin 1) (0 : Fin 1) l) = Ideal.div (acc (ix2 (0 : Fin 1) l)) Cert.Chamfer.cnt := by
  have h : k0_pay1 (F := Ideal) acc
      = shapeCast S1x1x128 (divf acc (broadcast S1x128 (Scalar.ofBits (F := Ideal) .f32 0x46800000#32))) shapeCasts_S1x128_S1x1x128 := rfl
  rw [h, shapeCast_ab_1ab_apply]
  rfl

end Cert.KernelIdeal.Payload

end
-- ==== Proof.Pieces.lean ====
/-
  What one run of the body leaves behind, case by case, as values.

  The body has three cases over the grid. Writing `x0`, `x1` for the two input blocks and `a` for the carried accumulator
  as the point finds it:
    first tile of a batch   the accumulator is zeroed and read back, then gains the tile's total:  accumulate x0 x1 zeros
    a middle tile           the accumulator gains the tile's total:                                accumulate x0 x1 a
    last tile of a batch    the same, and the output block is written from the new accumulator:    finish (accumulate x0 x1 a)
  Each store covers its whole buffer, so what a buffer holds afterwards is its last store's value, and a load after a store
  reads that store's value. These hold for any float values.
-/
import proofs.«131584_j46136538694019_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the accumulator ends at the tile's total added to zeros. -/
theorem carry_first (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x1x128 .f32) (harg4 : arg4.IsWhole) (arg5 : Memref sig .tc .vmem S1x128 .f32) (harg5 : arg5.IsWhole) (hc0 : cond0_0 i) (hc1 : ¬cond0_1 i)
    (x0 : Vec F S1x3x512 .f32) (x1 : Vec F S1x3x4096 .f32) :
    sout0_A_0 c i arg2 harg2 arg3 harg3 arg4 harg4 arg5 harg5 hc0 hc1 x0 x1 = k0_pay3 x0 x1 (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg5.read_unread, View.ld_unit_zero (S := S1x3x512) hz3, View.ld_unit_zero (S := S1x3x4096) hz3, View.ld_unit_zero (S := S1x128) hz2]

/-- A middle tile: the accumulator gains the tile's total. -/
theorem carry_middle (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : ¬cond0_1 i)
    (x0 : Vec F S1x3x512 .f32) (x1 : Vec F S1x3x4096 .f32) (xs0 : Vec F S1x128 .f32) :
    sout0_B_0 c i arg2 harg2 arg3 harg3 arg4 harg4 arg5 harg5 hc0 hc1 x0 x1 xs0 = k0_pay3 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x128) hz2]
  simp only [View.readAt_eq_ld, harg2.read_unread, harg3.read_unread, harg5.read_unread, View.ld_unit_zero (S := S1x3x512) hz3, View.ld_unit_zero (S := S1x3x4096) hz3, View.ld_unit_zero (S := S1x128) hz2]

/-- Last tile of a batch: the accumulator gains the tile's total, -/
theorem carry_last (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x3x512 .f32) (x1 : Vec F S1x3x4096 .f32) (xs0 : Vec F S1x128 .f32) :
    sout0_C_0 c i arg2 harg2 arg3 harg3 arg4 harg4 arg5 harg5 hc0 hc1 x0 x1 xs0 = k0_pay3 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x128) hz2]
  simp only [View.readAt_eq_ld, harg2.read_unread, harg3.read_unread, harg5.read_unread, View.ld_unit_zero (S := S1x3x512) hz3, View.ld_unit_zero (S := S1x3x4096) hz3, View.ld_unit_zero (S := S1x128) hz2]

/-- and the output block is written from that new accumulator. -/
theorem out_last (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x1x128 .f32) (harg4 : arg4.IsWhole) (arg5 : Memref sig .tc .vmem S1x128 .f32) (harg5 : arg5.IsWhole) (hc0 : ¬cond0_0 i) (hc1 : cond0_1 i)
    (x0 : Vec F S1x3x512 .f32) (x1 : Vec F S1x3x4096 .f32) (xs0 : Vec F S1x128 .f32) :
    out0_C_2 c i arg2 harg2 arg3 harg3 arg4 harg4 arg5 harg5 hc0 hc1 x0 x1 xs0 = k0_pay1 (k0_pay3 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x128) hz3, View.readCov_unit_zero (S := S1x128) _ hz2]
  simp only [View.readAt_eq_ld, harg2.read_unread, harg3.read_unread, harg5.read_unread, View.ld_unit_zero (S := S1x3x512) hz3, View.ld_unit_zero (S := S1x3x4096) hz3, View.ld_unit_zero (S := S1x128) hz2]

end Cert.KernelIdeal.Pieces

end
-- ==== Proof.Blocks.lean ====
/-
  The input blocks at a grid point, in terms of the argument arrays.

  The grid has 4 × 32 points; point `t` is batch `t / 32`, tile `t % 32`. Before the region the host transposes each argument's
  last two axes, so the region finds the sources as [4, 3, 16384] and the targets as [4, 3, 4096]. The source window's block at
  `t` is batch `t / 32`, all three coordinates, rows `512 · (t % 32) …`; the target window's block is the whole batch. Read
  back through the transposes:
    source block (0, d, r) = src_points (t / 32, 512 · (t % 32) + r, d)
    target block (0, d, m) = target_verts (t / 32, m, d).
-/
import proofs.«131584_j46136538694019_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The batch and the tile of a grid point, and a tile's row in its batch. -/
theorem lt128 (t : Fin cfg0.N) : t.val < 128 := lt_of_lt_of_eq t.isLt N_0
abbrev batchOf (t : Fin cfg0.N) : Fin 4 := ⟨t.val / 32, by have := lt128 t; omega⟩
abbrev rowOf (t : Fin cfg0.N) (r : Fin 512) : Fin 16384 :=
  ⟨512 * (t.val % 32) + r.val, by have := r.isLt; have := Nat.mod_lt t.val (show 32 > 0 by decide); omega⟩

/-- The region finds the sources transposed, -/
theorem V_src (c : Dev nD) :
    (V m c main_v0 : S4x3x16384.Idx → F .f32)
      = transpose S4x3x16384 [0, 2, 1] (m ((c : Thread nD τ).loc main_arg0)) transposes_S4x16384x3_S4x3x16384_0_2_1 := by
  show StableHlo.after hostOps0 (fun b => m (c, b)) (Proc.devRef .tc main_v0) = _
  after_results

/-- and the targets transposed. -/
theorem V_tgt (c : Dev nD) :
    (V m c main_v1 : S4x3x4096.Idx → F .f32)
      = transpose S4x3x4096 [0, 2, 1] (m ((c : Thread nD τ).loc main_arg1)) transposes_S4x4096x3_S4x3x4096_0_2_1 := by
  show StableHlo.after hostOps0 (fun b => m (c, b)) (Proc.devRef .tc main_v1) = _
  after_results

/-- The windows' block indices over the grid. -/
theorem idx_src : ∀ t : Fin cfg0.N, win0_0.index t 0 = t.val / 32 ∧ win0_0.index t 1 = 0 ∧ win0_0.index t 2 = t.val % 32 :=
  (by decide +kernel : ∀ t : Fin grid0.N, win0_0.index t 0 = t.val / 32 ∧ win0_0.index t 1 = 0 ∧ win0_0.index t 2 = t.val % 32)
theorem idx_tgt : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)

/-- The source block at a point, entry by entry: a block's coordinate in its array is its block index times the block's
    extent plus the coordinate inside the block. -/
theorem srcBlock_apply (c : Dev nD) (t : Fin cfg0.N) (d : Fin 3) (r : Fin 512) :
    (iblk m c 0 t : FVec F S1x3x512 .f32) (ix3 (0 : Fin 1) d r)
      = m ((c : Thread nD τ).loc main_arg0) (ix3 (batchOf t) (rowOf t r) d) := by
  have hi := idx_src t
  unfold iblk
  rw [View.read_apply]
  show V m c main_v0 _ = _
  rw [V_src]
  exact transpose_apply _ _ _ _ (ix3 (batchOf t) (rowOf t r) d) fun b => by
    match b with
    | ⟨0, _⟩ => show t.val / 32 = win0_0.index t 0 * 1 + 1 * 0; rw [hi.1]; omega
    | ⟨1, _⟩ => show d.val = win0_0.index t 1 * 3 + 1 * d.val; rw [hi.2.1]; omega
    | ⟨2, _⟩ => show 512 * (t.val % 32) + r.val = win0_0.index t 2 * 512 + 1 * r.val; rw [hi.2.2]; omega

/-- The target block at a point, entry by entry. -/
theorem tgtBlock_apply (c : Dev nD) (t : Fin cfg0.N) (d : Fin 3) (k : Fin 4096) :
    (iblk m c 1 t : FVec F S1x3x4096 .f32) (ix3 (0 : Fin 1) d k)
      = m ((c : Thread nD τ).loc main_arg1) (ix3 (batchOf t) k d) := by
  have hi := idx_tgt t
  unfold iblk
  rw [View.read_apply]
  show V m c main_v1 _ = _
  rw [V_tgt]
  exact transpose_apply _ _ _ _ (ix3 (batchOf t) k d) fun b => by
    match b with
    | ⟨0, _⟩ => show t.val / 32 = win0_1.index t 0 * 1 + 1 * 0; rw [hi.1]; omega
    | ⟨1, _⟩ => show d.val = win0_1.index t 1 * 3 + 1 * d.val; rw [hi.2.1]; omega
    | ⟨2, _⟩ => show k.val = win0_1.index t 2 * 4096 + 1 * k.val; rw [hi.2.2]; omega

end Cert.KernelIdeal.Blocks

end
-- ==== Proof.Carry.lean ====
/-
  The carried accumulator, point by point, and the output block.

  Write point `t` as batch `b = t / 32`, tile `k = t % 32`, and `g n` for the squared distance from source `n` of batch `b` to
  its nearest target. The body adds to every lane of the accumulator the tile's total `Σ_{r < 512} g (512 k + r)`, starting from
  zeros at the batch's first tile. So after point `t` every lane holds the partial sum of `g` over tiles 0, …, k
  (by induction on the point: the first tile by `partial_first`, a later one by `partial_next`), and at the batch's last tile,
  where that is the whole sum, the body writes it over the count into every lane of the output block: the batch's loss.
-/
import proofs.«131584_j46136538694019_2_alg».proof.Proof.Gen.KernelIdeal.Frame
import proofs.«131584_j46136538694019_2_alg».proof.Proof.Spec
import proofs.«131584_j46136538694019_2_alg».proof.Proof.Payload
import proofs.«131584_j46136538694019_2_alg».proof.Proof.Pieces
import proofs.«131584_j46136538694019_2_alg».proof.Proof.Blocks

noncomputable section

namespace Cert.KernelIdeal.Carry

open Cert.KernelIdeal Cert.KernelIdeal.Gen Idealize.ShloMosaic Idealize.ShloMosaic.TcCoe Idealize.SL.Sem
open Idealize.ShloMosaic.ValueIdx Cert.Chamfer Cert.KernelIdeal.Blocks Cert.KernelIdeal.Payload

variable (m : (ℓ : Loc nD τ sig) → Buf (Elt Ideal) ℓ)

/-- The argument arrays as launched, on core `c`. -/
abbrev srcArr (c : Dev nD) : S4x16384x3.Idx → EReal := m ((c : Thread nD τ).loc main_arg0)
abbrev tgtArr (c : Dev nD) : S4x4096x3.Idx → EReal := m ((c : Thread nD τ).loc main_arg1)

/-- Batch `b`'s row terms: each source's squared distance to its nearest target. -/
abbrev rowTerm (c : Dev nD) (b : Fin 4) : Fin 16384 → EReal :=
  fun n => nearest (srcPt (srcArr m c) b n) (tgtPt (tgtArr m c) b)

theorem tile_lt (t : Fin cfg0.N) : t.val % 32 < 32 := Nat.mod_lt _ (by decide)

/-- The tile's total the body computes at point `t` is the sum of the tile's row terms. -/
theorem tile_eq (c : Dev nD) (t : Fin cfg0.N) :
    (∑ r : Fin 512, nearest (blkSrc (iblk m c 0 t : FVec Ideal S1x3x512 .f32) r) (blkTgt (iblk m c 1 t : FVec Ideal S1x3x4096 .f32)))
      = tileSum (rowTerm m c (batchOf t)) (t.val % 32) (tile_lt t) := by
  unfold tileSum
  refine Finset.sum_congr rfl fun r _ => ?_
  have e0 : blkSrc (iblk m c 0 t : FVec Ideal S1x3x512 .f32) r = srcPt (srcArr m c) (batchOf t) (rowOf t r) :=
    funext fun d => srcBlock_apply m c t d r
  have e1 : blkTgt (iblk m c 1 t : FVec Ideal S1x3x4096 .f32) = tgtPt (tgtArr m c) (batchOf t) :=
    funext fun k => funext fun d => tgtBlock_apply m c t d k
  rw [e0, e1]

/-- Consecutive points of one batch. -/
theorem batch_pred (k : ℕ) (h : k + 1 < cfg0.N) (h0 : ¬(k + 1) % 32 = 0) :
    batchOf ⟨k, Nat.lt_of_succ_lt h⟩ = batchOf ⟨k + 1, h⟩ :=
  Fin.ext (by show k / 32 = (k + 1) / 32; omega)

/-- After point `n` every lane of the accumulator holds the partial sum over the batch's tiles so far. -/
theorem carry_eq (c : Dev nD) : ∀ (n : ℕ) (h : n < cfg0.N) (l : Fin 128),
    (outsAt0 m c n h).2 (ix2 (0 : Fin 1) l) = partialSum (rowTerm m c (batchOf ⟨n, h⟩)) (n % 32)
  | 0, h, l => by
    have h0 : (⟨0, h⟩ : Fin cfg0.N).val % 32 = 0 := rfl
    have h1 : ¬(⟨0, h⟩ : Fin cfg0.N).val % 32 = 31 := by show ¬(0 % 32 = 31); decide
    rw [outsAt0_A m c ⟨0, h⟩ h0 h1]
    dsimp only
    rw [Pieces.carry_first]
    refine (accumulate_apply (iblk m c 0 ⟨0, h⟩) (iblk m c 1 ⟨0, h⟩) (k0_pay2 (F := Ideal)) l).trans ?_
    rw [reset_apply, tile_eq m c ⟨0, h⟩]
    exact partial_first _ _ _ rfl
  | k + 1, h, l => by
    have hN : k + 1 < 128 := lt_of_lt_of_eq h N_0
    by_cases h0 : (k + 1) % 32 = 0
    · have h1 : ¬(k + 1) % 32 = 31 := by omega
      rw [outsAt0_A m c ⟨k + 1, h⟩ h0 h1]
      dsimp only
      rw [Pieces.carry_first]
      refine (accumulate_apply (iblk m c 0 ⟨k + 1, h⟩) (iblk m c 1 ⟨k + 1, h⟩) (k0_pay2 (F := Ideal)) l).trans ?_
      rw [reset_apply, tile_eq m c ⟨k + 1, h⟩]
      exact partial_first _ _ _ h0
    · have ih := carry_eq c k (Nat.lt_of_succ_lt h) l
      rw [batch_pred k h h0, show k % 32 = (k + 1) % 32 - 1 from by omega] at ih
      by_cases h1 : (k + 1) % 32 = 31
      · rw [outsAt0_C m c ⟨k + 1, h⟩ h0 h1]
        dsimp only
        rw [Pieces.carry_last]
        refine (accumulate_apply (iblk m c 0 ⟨k + 1, h⟩) (iblk m c 1 ⟨k + 1, h⟩) (outsAt0 m c k (Nat.lt_of_succ_lt h)).2 l).trans ?_
        rw [ih, tile_eq m c ⟨k + 1, h⟩]
        exact partial_next _ _ _ h0
      · rw [outsAt0_B m c ⟨k + 1, h⟩ h0 h1]
        dsimp only
        rw [Pieces.carry_middle]
        refine (accumulate_apply (iblk m c 0 ⟨k + 1, h⟩) (iblk m c 1 ⟨k + 1, h⟩) (outsAt0 m c k (Nat.lt_of_succ_lt h)).2 l).trans ?_
        rw [ih, tile_eq m c ⟨k + 1, h⟩]
        exact partial_next _ _ _ h0

/-- At a batch's last tile every entry of the output block is the batch's loss. -/
theorem out_eq (c : Dev nD) (t : Fin cfg0.N) (h1 : t.val % 32 = 31) :
    (outsAt0 m c t.val t.isLt).1 = fun _ : S1x1x128.Idx => loss (srcPt (srcArr m c) (batchOf t)) (tgtPt (tgtArr m c) (batchOf t)) := by
  have h0 : ¬t.val % 32 = 0 := by omega
  funext y
  obtain ⟨u, v, l, rfl⟩ : ∃ (u v : Fin 1) (l : Fin 128), y = ix3 u v l := ⟨y 0, y 1, y 2, eq_ix3 y⟩
  obtain rfl : u = 0 := Subsingleton.elim _ _
  obtain rfl : v = 0 := Subsingleton.elim _ _
  have hc := carry_eq m c t.val t.isLt l
  rw [outsAt0_C m c t h0 h1] at hc ⊢
  dsimp only at hc ⊢
  rw [Pieces.carry_last] at hc
  rw [Pieces.out_last]
  refine (finish_apply _ l).trans ?_
  rw [hc, h1, partial_last]
  rfl

end Cert.KernelIdeal.Carry

end
-- ==== Proof.Final.lean ====
/-
  From the output blocks to the result.

  The output window's block at point `t` is row `t / 32` of the [4, 1, 128] array, and it is written back only after a batch's
  last tile (`t % 32 = 31`), when every lane of it holds the batch's loss. The four write-backs cover the array, so it ends with
  row `b` holding batch `b`'s loss in every lane. The host then takes lane 0 of each row and drops the unit axes: the loss of
  each batch.
-/
import proofs.«131584_j46136538694019_2_alg».proof.Proof.Gen.KernelIdeal.Frame
import proofs.«131584_j46136538694019_2_alg».proof.Proof.Spec
import proofs.«131584_j46136538694019_2_alg».proof.Proof.Carry
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.StableHlo Cert.Chamfer Cert.KernelIdeal.Blocks Cert.KernelIdeal.Carry
open Idealize.ShloMosaic.Pipeline (Dat)

variable (m : (ℓ : Loc nD τ sig) → Buf (Elt Ideal) ℓ) (ρ : Dev nD → PrngReg)

/-- The batch a row of the output array belongs to. -/
abbrev rowBatch (i : S4x1x128.Idx) : Fin 4 := ⟨(i 0).val, (i 0).isLt⟩

/-- The output array after the run: every lane of row `b` is batch `b`'s loss. -/
def outArr (c : Dev nD) : S4x1x128.Idx → EReal :=
  fun i => loss (srcPt (srcArr m c) (rowBatch i)) (tgtPt (tgtArr m c) (rowBatch i))

/-- The output window's block indices over the grid. -/
theorem idx_out : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What a write-back writes is the block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  have hi := idx_out t
  show (cfg0.win 2).cut (grid0.coords t) ((dats m 0 c).after 2 t) = _
  rw [after0_2, out_eq m c t h1]
  funext y
  rw [View.read_apply]
  show loss (srcPt (srcArr m c) (batchOf t)) (tgtPt (tgtArr m c) (batchOf t)) = outArr m c (((cfg0.win 2).blk t).view.emb y)
  unfold outArr
  have hb : rowBatch (((cfg0.win 2).blk t).view.emb y) = batchOf t := Fin.ext (by
    have hy : (y 0).val < 1 := (y 0).isLt
    show win0_2.index t 0 * 1 + 1 * (y 0).val = t.val / 32
    rw [hi.1]; omega)
  rw [hb]

/-- An index of the array is in point `t`'s block iff each coordinate is in the block's range. -/
theorem mem_blk (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

/-- The four write-backs cover the array: row `b` by the write-back after batch `b`'s last tile. -/
theorem cover (i : S4x1x128.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 128 := (i 2).isLt
  have hN : cfg0.N = 128 := N_0
  refine ⟨⟨32 * (i 0).val + 31, by rw [hN]; omega⟩, (flush0_2 _).mpr (by show (32 * (i 0).val + 31) % 32 = 31; omega), ?_⟩
  rw [mem_blk]
  obtain ⟨e0, e1, e2⟩ := idx_out ⟨32 * (i 0).val + 31, by rw [hN]; omega⟩
  intro a
  match a with
  | ⟨0, _⟩ => show win0_2.index _ 0 * 1 ≤ (i 0).val ∧ (i 0).val < win0_2.index _ 0 * 1 + 1; rw [e0]; show (32 * (i 0).val + 31) / 32 * 1 ≤ (i 0).val ∧ (i 0).val < (32 * (i 0).val + 31) / 32 * 1 + 1; omega
  | ⟨1, _⟩ => show win0_2.index _ 1 * 1 ≤ (i 1).val ∧ (i 1).val < win0_2.index _ 1 * 1 + 1; rw [e1]; omega
  | ⟨2, _⟩ => show win0_2.index _ 2 * 128 ≤ (i 2).val ∧ (i 2).val < win0_2.index _ 2 * 128 + 128; rw [e2]; omega

/-- So the output array ends at `outArr`. -/
theorem final_out (c : Dev nD) : (dats m 0 c).arrAt 2 cfg0.N = outArr m c :=
  (dats m 0 c).arrAt_eq_of_cover 2 (outArr m c) (flushed_eq m c) cover

/-- Row `b` of the output array, at any lane, is batch `b`'s loss. -/
theorem outArr_apply (c : Dev nD) (b : Fin 4) (u : Fin 1) (l : Fin 128) :
    outArr m c (ix3 b u l) = lossOf (srcArr m c) (tgtArr m c) (ix1 b) := by
  unfold outArr lossOf
  have hb : rowBatch (ix3 b u l) = b := Fin.ext rfl
  rw [hb]

/-- Lane 0 of each row with the unit axes dropped: the slice `[0:4, 0:1, 0:1]` then the reshape to `[4]`, read at `b`. -/
theorem pick_apply (A : S4x1x128.Idx → EReal) (b : Fin 4) :
    shapeCast S4 (extractStridedSlice S4x1x1 ![0, 0, 0] A slices_S4x1x128_S4x1x1_0_0_0) shapeCasts_S4x1x1_S4 (ix1 b)
      = A (ix3 b (0 : Fin 1) (0 : Fin 128)) := by
  refine (shapeCast_apply _ shapeCasts_S4x1x1_S4 (ix1 b) (ix3 b (0 : Fin 1) (0 : Fin 1)) (by
    rw [Shape.rowMajor_val_three, Shape.rowMajor_val_one]
    show (b.val * 1 + 0) * 1 + 0 = b.val
    omega)).trans ?_
  exact extractStridedSlice_apply ![0, 0, 0] A slices_S4x1x128_S4x1x1_0_0_0 (ix3 b (0 : Fin 1) (0 : Fin 1))
    (ix3 b (0 : Fin 1) (0 : Fin 128)) (fun a => by
      match a with
      | ⟨0, _⟩ => show b.val = 0 + b.val; omega
      | ⟨1, _⟩ => rfl
      | ⟨2, _⟩ => rfl)

/-- After the region the output array, as the host's tail finds it, is `outArr`. -/
theorem withArr_eq (c : Dev nD) :
    Pipeline.withArrays (cfgs 0).spec c (V0 m c) (fun w => (dats m 0 c).arrAt w (cfgs 0).N) (Proc.devRef .tc main_v2)
      = outArr m c :=
  (Pipeline.withArrays_arr spec0 launch0.win.arr_inj c _ _ 2).trans (final_out m c)

/-- The host's tail: lane 0 of each row, the unit axes dropped. -/
theorem tail_eq (c : Dev nD) :
    Pipeline.afterTail₀ cfgs (dats m) 0 (V0 m) [hostOps1] c main_v4 = lossOf (srcArr m c) (tgtArr m c) := by
  unfold Pipeline.afterTail₀
  show StableHlo.after hostOps1 _ (Proc.devRef .tc main_v4) = _
  after_results
  rw [withArr_eq m c]
  funext i
  obtain ⟨b, rfl⟩ : ∃ b : Fin 4, i = ix1 b := ⟨i 0, eq_ix1 i⟩
  exact (pick_apply (outArr m c) b).trans (outArr_apply m c b 0 0)

/-- The kernel's run, read: the result holds each batch's loss, and the arguments are unchanged. -/
theorem run : θ_run defs (onTc (τ := τ) (main (F := Ideal))) ⟨m, fun _ => 0, ρ⟩ fun r => ∀ c : Dev nD,
      r.2.mem ((c.tc : Thread nD τ).loc main_v4) = lossOf (srcArr m c) (tgtArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Final

end
-- ==== Proof.lean ====
/-
  Mean squared distance to the nearest target, batch by batch: the kernel and the reference compute one function.

  Both programs take source points [4, 16384, 3] and target points [4, 4096, 3] and return, for each of the 4 batches,
    loss b = ( Σ_n  min_m  max ( (|p_n|² + |q_m|²) − 2 · ⟨p_n, q_m⟩ , 0 ) ) / 16384
  over the batch's sources `p` and targets `q`, every operation the exact one on the extended reals.

  The reference forms the whole [4, 16384, 4096] array of clamped distances, reduces it along the targets by a minimum from +∞
  and along the sources by a sum from 0, and divides. The kernel works on the points transposed, a tile of 512 sources against
  all 4096 targets at each of 4 × 32 grid points: it forms the same clamped distances (the cross term by a matrix product over
  the coordinate axis), their minima and the tile's total, and carries the running total of a batch across its 32 tiles in a
  scratch accumulator that it zeroes at the batch's first tile; at the last tile it divides and writes the batch's output row,
  of which the host keeps lane 0. The two agree because a sum over 16384 rows is the running sum of its 32 tiles of 512 rows
  (commutativity and associativity of addition alone, so also at the infinities), and the rest is the same expression read at
  different indices. The precondition is not needed for that; it is used by no step below.

  The frames of the two kernel programs and the reference's run are the generated ones; the ideal pass rewrote nothing, so
  the idealization claim is trivial.
-/
import proofs.«131584_j46136538694019_2_alg».proof.Defs
import proofs.«131584_j46136538694019_2_alg».proof.Proof.Gen.Kernel
import proofs.«131584_j46136538694019_2_alg».proof.Proof.Gen.Kernel.Skeleton
import proofs.«131584_j46136538694019_2_alg».proof.Proof.Gen.Kernel.Launch
import proofs.«131584_j46136538694019_2_alg».proof.Proof.Gen.Kernel.Points
import proofs.«131584_j46136538694019_2_alg».proof.Proof.Gen.Kernel.Frame
import proofs.«131584_j46136538694019_2_alg».proof.Proof.Gen.KernelIdeal
import proofs.«131584_j46136538694019_2_alg».proof.Proof.Gen.KernelIdeal.Skeleton
import proofs.«131584_j46136538694019_2_alg».proof.Proof.Gen.KernelIdeal.Launch
import proofs.«131584_j46136538694019_2_alg».proof.Proof.Gen.KernelIdeal.Points
import proofs.«131584_j46136538694019_2_alg».proof.Proof.Gen.KernelIdeal.Frame
import proofs.«131584_j46136538694019_2_alg».proof.Proof.Gen.ReferenceIdeal
import proofs.«131584_j46136538694019_2_alg».proof.Proof.Gen.ReferenceIdeal.Run
import proofs.«131584_j46136538694019_2_alg».proof.Proof.Gen.ReferenceIdeal.Read
import proofs.«131584_j46136538694019_2_alg».proof.Proof.Gen.Pre_finite_inputs
import proofs.«131584_j46136538694019_2_alg».proof.Proof.RefValue
import proofs.«131584_j46136538694019_2_alg».proof.Proof.Final
import Idealize.ShloMosaic.Adequacy
import Idealize.ShloMosaic.Init

noncomputable section

namespace Cert.Proof

open Idealize.ShloMosaic Idealize.SL.Sem

/-- The three programs run, fault-free, and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From arguments that agree, both idealized programs end with each batch's loss. -/
theorem algebraic : Cert.algebraic_KernelIdeal_ReferenceIdeal := by
  intro m ρ m' ρ' _ hagree
  refine ⟨fun c => Cert.Chamfer.lossOf (Cert.KernelIdeal.Carry.srcArr m c) (Cert.KernelIdeal.Carry.tgtArr m c),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
